-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x1000000x16 : Shape := ⟨3, ![3, 1000000, 16]⟩
abbrev S1000000x3 : Shape := ⟨2, ![1000000, 3]⟩
abbrev S_ : Shape := ⟨0, ![]⟩

class Facts : Prop where
  bcast_S_S3x1000000x16 : S_.BroadcastsInDim S3x1000000x16 (![] : Fin 0 → Fin S3x1000000x16.rank)
  reducesTo_S3x1000000x16_S_d0_1_2 : S3x1000000x16.ReducesTo [0, 1, 2] S_
  h_S_ : 0 < S_.numel

variable [Facts]

def fn {F : FTy → Type} [FloatOps F] (main_arg0 : FVec F S3x1000000x16 .f32) (main_arg1 : IVec S1000000x3 32) : IVec S_ 1 :=
  let main_v0 : FVec F S3x1000000x16 .f32 := Host.absf main_arg0
  let main_cst : FVec F S_ .f32 := constant S_ .f32 0x7F800000#32
  let main_v1 : FVec F S3x1000000x16 .f32 := broadcastInDim S3x1000000x16 ![] bcast_S_S3x1000000x16 main_cst
  let main_v2 : IVec S3x1000000x16 1 := cmpf .olt main_v0 main_v1
  let main_c : IVec S_ 1 := constantI S_ 1 1#1
  let main_v3 : IVec S_ 1 := (fun x v => Host.reduce IntOp.andi x v reducesTo_S3x1000000x16_S_d0_1_2 h_S_) main_v2 main_c
  main_v3
-- ==== Kernel.lean ====
abbrev S3x1000000x16 : Shape := ⟨3, ![3, 1000000, 16]⟩
abbrev S1000000x3 : Shape := ⟨2, ![1000000, 3]⟩
abbrev S2x3x16 : Shape := ⟨3, ![2, 3, 16]⟩
abbrev S3x10000x16 : Shape := ⟨3, ![3, 10000, 16]⟩
abbrev S10000x3 : Shape := ⟨2, ![10000, 3]⟩
abbrev S1x3x16 : Shape := ⟨3, ![1, 3, 16]⟩
abbrev S3x16 : Shape := ⟨2, ![3, 16]⟩
abbrev S10000x1 : Shape := ⟨2, ![10000, 1]⟩
abbrev S1x16 : Shape := ⟨2, ![1, 16]⟩
abbrev S10000x16 : Shape := ⟨2, ![10000, 16]⟩
abbrev S1x10000x16 : Shape := ⟨3, ![1, 10000, 16]⟩
abbrev S1x1x16 : Shape := ⟨3, ![1, 1, 16]⟩
abbrev S16 : Shape := ⟨1, ![16]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S3x1000000x16, .f32⟩
  | .hbm, ⟨1, _⟩ => ⟨S1000000x3, .i32⟩
  | .hbm, ⟨2, _⟩ => ⟨S2x3x16, .f32⟩
  | .hbm, ⟨3, _⟩ => ⟨S2x3x16, .f32⟩
  | .hbm, ⟨4, _⟩ => ⟨S_, .f32⟩
  | .hbm, ⟨5, _⟩ => ⟨S3x16, .f32⟩
  | .hbm, ⟨6, _⟩ => ⟨S_, .f32⟩
  | .hbm, ⟨7, _⟩ => ⟨S3x16, .f32⟩
  | .hbm, ⟨8, _⟩ => ⟨S3x16, .f32⟩
  | .hbm, ⟨9, _⟩ => ⟨S3x16, .f32⟩
  | .local _ .vmem, ⟨0, _⟩ => ⟨S3x10000x16, .f32⟩
  | .local _ .vmem, ⟨1, _⟩ => ⟨S3x10000x16, .f32⟩
  | .local _ .vmem, ⟨2, _⟩ => ⟨S10000x3, .i32⟩
  | .local _ .vmem, ⟨3, _⟩ => ⟨S10000x3, .i32⟩
  | .local _ .vmem, ⟨4, _⟩ => ⟨S1x3x16, .f32⟩
  | .local _ .vmem, ⟨5, _⟩ => ⟨S1x3x16, .f32⟩
  | .local _ .vmem, ⟨6, _⟩ => ⟨S1x3x16, .f32⟩
  | .local _ .vmem, ⟨7, _⟩ => ⟨S1x3x16, .f32⟩
  | _, _ => ⟨S3x1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

def cc0_transform_0 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x3x16_S1x3x16_0_0_0 : ∀ a, (![0, 0, 0] : Fin 3 → Nat) a + S1x3x16.size a ≤ S1x3x16.size a
  h_S1x3x16 : 0 < S1x3x16.numel
  shapeCasts_S1x3x16_S3x16 : S1x3x16.ShapeCasts S3x16
  shapeCasts_S3x16_S1x3x16 : S3x16.ShapeCasts S1x3x16
  inb_S10000x3_S10000x1_0_0 : ∀ a, (![0, 0] : Fin 2 → Nat) a + S10000x1.size a ≤ S10000x3.size a
  h_S10000x1 : 0 < S10000x1.numel
  inb_S10000x3_S10000x1_0_1 : ∀ a, (![0, 1] : Fin 2 → Nat) a + S10000x1.size a ≤ S10000x3.size a
  iota_S1x16_d1_w32 : S1x16.Iotas .tc 32 [1]
  broadcasts_S1x16_S10000x16 : S1x16.Broadcasts S10000x16
  broadcasts_S10000x1_S10000x16 : S10000x1.Broadcasts S10000x16
  natLt_1_32 : 1 < 32
  inb_S3x10000x16_S1x10000x16_0_0_0 : ∀ a, (![0, 0, 0] : Fin 3 → Nat) a + S1x10000x16.size a ≤ S3x10000x16.size a
  h_S1x10000x16 : 0 < S1x10000x16.numel
  shapeCasts_S1x10000x16_S10000x16 : S1x10000x16.ShapeCasts S10000x16
  inb_S1x3x16_S1x1x16_0_0_0 : ∀ a, (![0, 0, 0] : Fin 3 → Nat) a + S1x1x16.size a ≤ S1x3x16.size a
  h_S1x1x16 : 0 < S1x1x16.numel
  shapeCasts_S1x1x16_S16 : S1x1x16.ShapeCasts S16
  reduces_S10000x16_S16 : S10000x16.Reduces [0] S16
  shapeCasts_S16_S1x1x16 : S16.ShapeCasts S1x1x16
  inb_S3x10000x16_S1x10000x16_1_0_0 : ∀ a, (![1, 0, 0] : Fin 3 → Nat) a + S1x10000x16.size a ≤ S3x10000x16.size a
  inb_S1x3x16_S1x1x16_0_1_0 : ∀ a, (![0, 1, 0] : Fin 3 → Nat) a + S1x1x16.size a ≤ S1x3x16.size a
  inb_S3x10000x16_S1x10000x16_2_0_0 : ∀ a, (![2, 0, 0] : Fin 3 → Nat) a + S1x10000x16.size a ≤ S3x10000x16.size a
  inb_S1x3x16_S1x1x16_0_2_0 : ∀ a, (![0, 2, 0] : Fin 3 → Nat) a + S1x1x16.size a ≤ S1x3x16.size a
  reducesTo_S2x3x16_S3x16_d0 : S2x3x16.ReducesTo [0] S3x16
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x10000x16.size a ≤ S3x1000000x16.size a
  hwx0_0 : ∀ i : grid0.Coords, EltTy.bits .f32 = 32 ∨ (Rect.block (s := S3x1000000x16) S3x10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S1000000x3.size a
  hwx0_1 : ∀ i : grid0.Coords, EltTy.bits .i32 = 32 ∨ (Rect.block (s := S1000000x3) S10000x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16.size a ≤ S2x3x16.size a
  hwx0_2 : ∀ i : grid0.Coords, EltTy.bits .f32 = 32 ∨ (Rect.block (s := S2x3x16) S1x3x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x16.size a ≤ S2x3x16.size a
  hwx0_3 : ∀ i : grid0.Coords, EltTy.bits .f32 = 32 ∨ (Rect.block (s := S2x3x16) S1x3x16.size (cc0_transform_3 i) (hinb0_3 i)).WholeWords (EltTy.packing .f32)

variable [Facts₀]

abbrev win0_0 : Pipeline.Window sig grid0 :=
  Pipeline.Window.ofSpec (Memref.whole main_arg0) S3x10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x3x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x3x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x1000000x16 : Shape := ⟨3, ![3, 1000000, 16]⟩
abbrev S1000000x3 : Shape := ⟨2, ![1000000, 3]⟩
abbrev S3x1000000 : Shape := ⟨2, ![3, 1000000]⟩
abbrev S16 : Shape := ⟨1, ![16]⟩
abbrev S1x16 : Shape := ⟨2, ![1, 16]⟩
abbrev S1x1000000 : Shape := ⟨2, ![1, 1000000]⟩
abbrev S1000000 : Shape := ⟨1, ![1000000]⟩
abbrev S1000000x1 : Shape := ⟨2, ![1000000, 1]⟩
abbrev S1000000x16 : Shape := ⟨2, ![1000000, 16]⟩
abbrev S1x1000000x16 : Shape := ⟨3, ![1, 1000000, 16]⟩
abbrev S_ : Shape := ⟨0, ![]⟩
abbrev S3x16 : Shape := ⟨2, ![3, 16]⟩

abbrev nBuf : Space → Nat
  | .hbm => 34
  | .vmem => 0
  | .smem => 0
  | _ => 0

abbrev bufTy : (tb : Table) → Fin (tcTables nBuf tb) → BufTy
  | .hbm, ⟨0, _⟩ => ⟨S3x1000000x16, .f32⟩
  | .hbm, ⟨1, _⟩ => ⟨S1000000x3, .i32⟩
  | .hbm, ⟨2, _⟩ => ⟨S3x1000000, .i32⟩
  | .hbm, ⟨3, _⟩ => ⟨S16, .i32⟩
  | .hbm, ⟨4, _⟩ => ⟨S1x16, .i32⟩
  | .hbm, ⟨5, _⟩ => ⟨S1x1000000, .i32⟩
  | .hbm, ⟨6, _⟩ => ⟨S1000000, .i32⟩
  | .hbm, ⟨7, _⟩ => ⟨S1000000x1, .i32⟩
  | .hbm, ⟨8, _⟩ => ⟨S1000000x16, .i32⟩
  | .hbm, ⟨9, _⟩ => ⟨S1000000x16, .i32⟩
  | .hbm, ⟨10, _⟩ => ⟨S1000000x16, .i1⟩
  | .hbm, ⟨11, _⟩ => ⟨S1000000x16, .f32⟩
  | .hbm, ⟨12, _⟩ => ⟨S1x16, .i32⟩
  | .hbm, ⟨13, _⟩ => ⟨S1x1000000, .i32⟩
  | .hbm, ⟨14, _⟩ => ⟨S1000000, .i32⟩
  | .hbm, ⟨15, _⟩ => ⟨S1000000x1, .i32⟩
  | .hbm, ⟨16, _⟩ => ⟨S1000000x16, .i32⟩
  | .hbm, ⟨17, _⟩ => ⟨S1000000x16, .i32⟩
  | .hbm, ⟨18, _⟩ => ⟨S1000000x16, .i1⟩
  | .hbm, ⟨19, _⟩ => ⟨S1000000x16, .f32⟩
  | .hbm, ⟨20, _⟩ => ⟨S1x1000000x16, .f32⟩
  | .hbm, ⟨21, _⟩ => ⟨S3x1000000x16, .f32⟩
  | .hbm, ⟨22, _⟩ => ⟨S3x1000000x16, .f32⟩
  | .hbm, ⟨23, _⟩ => ⟨S3x1000000x16, .f32⟩
  | .hbm, ⟨24, _⟩ => ⟨S_, .f32⟩
  | .hbm, ⟨25, _⟩ => ⟨S3x16, .f32⟩
  | .hbm, ⟨26, _⟩ => ⟨S1x1000000x16, .f32⟩
  | .hbm, ⟨27, _⟩ => ⟨S3x1000000x16, .f32⟩
  | .hbm, ⟨28, _⟩ => ⟨S3x1000000x16, .f32⟩
  | .hbm, ⟨29, _⟩ => ⟨S3x1000000x16, .f32⟩
  | .hbm, ⟨30, _⟩ => ⟨S_, .f32⟩
  | .hbm, ⟨31, _⟩ => ⟨S3x16, .f32⟩
  | .hbm, ⟨32, _⟩ => ⟨S3x16, .f32⟩
  | .hbm, ⟨33, _⟩ => ⟨S3x16, .f32⟩
  | _, _ => ⟨S3x1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]

class Facts₀ : Prop where
  transposes_S1000000x3_S3x1000000_1_0 : S1000000x3.Transposes [1, 0] S3x1000000
  bcast_S16_S1x16_1 : S16.BroadcastsInDim S1x16 (![1] : Fin 1 → Fin S1x16.rank)
  slices_S3x1000000_S1x1000000_0_0 : S3x1000000.Slices ![0, 0] S1x1000000
  shapeCasts_S1x1000000_S1000000 : S1x1000000.ShapeCasts S1000000
  bcast_S1000000_S1000000x1_0 : S1000000.BroadcastsInDim S1000000x1 (![0] : Fin 1 → Fin S1000000x1.rank)
  bcast_S1x16_S1000000x16_0_1 : S1x16.BroadcastsInDim S1000000x16 (![0, 1] : Fin 2 → Fin S1000000x16.rank)
  bcast_S1000000x1_S1000000x16_0_1 : S1000000x1.BroadcastsInDim S1000000x16 (![0, 1] : Fin 2 → Fin S1000000x16.rank)
  slices_S3x1000000_S1x1000000_1_0 : S3x1000000.Slices ![1, 0] S1x1000000
  bcast_S1000000x16_S1x1000000x16_1_2 : S1000000x16.BroadcastsInDim S1x1000000x16 (![1, 2] : Fin 2 → Fin S1x1000000x16.rank)
  bcast_S1x1000000x16_S3x1000000x16_0_1_2 : S1x1000000x16.BroadcastsInDim S3x1000000x16 (![0, 1, 2] : Fin 3 → Fin S3x1000000x16.rank)
  reducesTo_S3x1000000x16_S3x16_d1 : S3x1000000x16.ReducesTo [1] S3x16
  h_S_ : 0 < S_.numel

variable [Facts₀]

class Facts : Prop extends Facts₀ where

variable [Facts]
-- ==== Proof.Spec.lean ====
/-
  The ordinal-mask squared-error sums, as plain functions of the two argument arrays.

  For a batch row `b` with integer target word `w`, the ordinal mask at level `j` is `1` when `j ≤ w`
  (signed) and `0` otherwise; the per-row term at task `t` and level `j` is `(x[t,b,j] - mask)²`, and the
  result for target column `k` is the sum of the terms over all rows of the batch. Everything is over the
  extended reals: the only law used later is that a finite sum may be regrouped, which holds in every
  commutative additive monoid, so nothing is asked of the inputs.
-/
import Idealize.ShloMosaic.PureOps.Ideal
import Idealize.ShloMosaic.PureOps.Ideal.Laws
import Idealize.ShloMosaic.Lib.ValueIdx

noncomputable section

open scoped BigOperators

namespace Cert.OrdinalSums

open Idealize.ShloMosaic Idealize.ShloMosaic.ValueIdx

/-- The ordinal mask bit of level `j` against the target word `w`: `1` when `j ≤ w` as signed words. -/
def bit (w : BitVec 32) (j : Fin 16) : BitVec 1 := IntOp.cmpi .sle (BitVec.ofNat 32 j.val) w

/-- The mask as an extended real, `0` or `1`. -/
def msk (w : BitVec 32) (j : Fin 16) : EReal := (((bit w j).toNat : ℝ) : EReal)

/-- A one-bit word widened to 32 bits and read signed is the bit read unsigned. -/
theorem toInt_setWidth_bit : ∀ b : BitVec 1, (b.setWidth 32).toInt = (b.toNat : ℤ) := by decide

/-- So the mask is also the widened bit converted as a signed integer. -/
theorem msk_eq_signed (w : BitVec 32) (j : Fin 16) :
    ((((bit w j).setWidth 32).toInt : ℝ) : EReal) = msk w j := by
  unfold msk
  rw [toInt_setWidth_bit]
  norm_cast

/-- One row's term: the squared distance of the score from the mask. -/
def term (x : EReal) (w : BitVec 32) (j : Fin 16) : EReal := (x - msk w j) * (x - msk w j)

/-- The term of batch row `b` (a natural number; `0` past the end of the batch) for target column `k`, task `t`, level `j`. -/
def rowTerm (x : (⟨3, ![3, 1000000, 16]⟩ : Shape).Idx → EReal) (tg : (⟨2, ![1000000, 3]⟩ : Shape).Idx → BitVec 32)
    (k : Fin 3) (t : Fin 3) (j : Fin 16) (b : ℕ) : EReal :=
  if h : b < 1000000 then term (x (ix3 t ⟨b, h⟩ j)) (tg (ix2 ⟨b, h⟩ k)) j else 0

/-- The whole-batch sum for target column `k`. -/
def total (x : (⟨3, ![3, 1000000, 16]⟩ : Shape).Idx → EReal) (tg : (⟨2, ![1000000, 3]⟩ : Shape).Idx → BitVec 32)
    (k : Fin 3) (t : Fin 3) (j : Fin 16) : EReal :=
  ∑ b : Fin 1000000, rowTerm x tg k t j b.val

/-- The sum of the rows of one block of 10000 consecutive rows, block number `p`. -/
def blockSum (x : (⟨3, ![3, 1000000, 16]⟩ : Shape).Idx → EReal) (tg : (⟨2, ![1000000, 3]⟩ : Shape).Idx → BitVec 32)
    (k : Fin 3) (t : Fin 3) (j : Fin 16) (p : ℕ) : EReal :=
  ∑ r : Fin 10000, rowTerm x tg k t j (10000 * p + r.val)

end Cert.OrdinalSums

end
-- ==== Proof.Rows.lean ====
import proofs.«148329_j22643067584813_2_alg».proof.Proof.Gen.KernelIdeal.Skeleton
import proofs.«148329_j22643067584813_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

/-!
  The kernel body's arithmetic, one output row at a time.

  Every one of the body's six accumulating stores writes a row `[1,1,16]` of an output block computed the
  same way: the row read back from the block, plus the column sums over the 10000 rows of the input block
  of `(x - mask)²`. `rowAcc` is that one computation; the six printed payloads are instances of it, and
  at the extended reals its entry at level `j` is the old entry plus the sum over the block's rows of the
  per-row terms.
-/

namespace Cert.KernelIdeal.Rows

open Cert.KernelIdeal Cert.KernelIdeal.Gen Idealize.ShloMosaic.ValueIdx Cert.OrdinalSums

variable {F : FTy → Type} [FloatOps F]

/-- One accumulating row: `acc + Σ_rows (x - mask)²`, with the layout changes the body makes around it. -/
def rowAcc (mk : FVec F S10000x16 .f32) (xrow : Vec F S1x10000x16 .f32) (acc : Vec F S1x1x16 .f32) : FVec F S1x1x16 .f32 :=
  shapeCast S1x1x16
    (addf (shapeCast S16 acc shapeCasts_S1x1x16_S16)
      (multiReduction .add [0] S16
        (mulf (subf (shapeCast S10000x16 xrow shapeCasts_S1x10000x16_S10000x16) mk)
          (subf (shapeCast S10000x16 xrow shapeCasts_S1x10000x16_S10000x16) mk))
        0x00000000#32 reduces_S10000x16_S16 (.inl rfl) rfl))
    shapeCasts_S16_S1x1x16

theorem pay8_eq (v3 : Vec F S10000x1 .i32) (v16 : Vec F S1x10000x16 .f32) (v20 : Vec F S1x1x16 .f32) :
    k0_pay8 v3 v16 v20 = rowAcc (k0_pay5 v3) v16 v20 := rfl
theorem pay10_eq (v4 : Vec F S10000x1 .i32) (v16 : Vec F S1x10000x16 .f32) (v28 : Vec F S1x1x16 .f32) :
    k0_pay10 (k0_pay9 v4 v16 v28) = rowAcc (k0_pay5 v4) v16 v28 := rfl
theorem pay12_eq (v10 : FVec F S10000x16 .f32) (v36 : Vec F S1x10000x16 .f32) (v40 : Vec F S1x1x16 .f32) :
    k0_pay12 v10 v36 v40 = rowAcc v10 v36 v40 := rfl
theorem pay13_eq (v15 : FVec F S10000x16 .f32) (v36 : Vec F S1x10000x16 .f32) (v48 : Vec F S1x1x16 .f32) :
    k0_pay13 v15 v36 v48 = rowAcc v15 v36 v48 := rfl
theorem pay1_eq (v10 : FVec F S10000x16 .f32) (v56 : Vec F S1x10000x16 .f32) (v60 : Vec F S1x1x16 .f32) :
    k0_pay1 (k0_pay16 v10 v56 v60) = rowAcc v10 v56 v60 := rfl
theorem pay2_eq (v15 : FVec F S10000x16 .f32) (v56 : Vec F S1x10000x16 .f32) (v68 : Vec F S1x1x16 .f32) :
    k0_pay2 (k0_pay15 v15 v56) v68 = rowAcc v15 v56 v68 := rfl
/-- The second mask is the first computation applied to the other target column. -/
theorem pay6_eq (v4 : Vec F S10000x1 .i32) : k0_pay6 v4 = k0_pay5 v4 := rfl

/-- The mask vector at row `r`, level `j`: the ordinal mask of that row's target word. -/
theorem mask_apply (v : Vec Ideal S10000x1 .i32) (r : Fin 10000) (j : Fin 16) :
    k0_pay5 (F := Ideal) v (ix2 r j) = msk (v (ix2 r 0)) j := by
  unfold k0_pay5
  show FloatOps.sitofp (F := Ideal) .f32 ((IntOp.cmpi .sle
      (broadcastTo S10000x16 (iota .tc S1x16 32 [1] iota_S1x16_d1_w32) broadcasts_S1x16_S10000x16 (ix2 r j))
      (broadcastTo S10000x16 v broadcasts_S10000x1_S10000x16 (ix2 r j))).setWidth 32) = _
  rw [broadcastTo_apply _ broadcasts_S1x16_S10000x16 (ix2 r j) (ix2 (0 : Fin 1) j) (fun a => by
        match a with
        | ⟨0, _⟩ => rfl
        | ⟨1, _⟩ => rfl),
    broadcastTo_apply v broadcasts_S10000x1_S10000x16 (ix2 r j) (ix2 r (0 : Fin 1)) (fun a => by
        match a with
        | ⟨0, _⟩ => rfl
        | ⟨1, _⟩ => rfl),
    iota_single_apply]
  exact msk_eq_signed (v (ix2 r 0)) j

/-- One accumulating row at level `j`, over the extended reals. -/
theorem rowAcc_apply (mk : FVec Ideal S10000x16 .f32) (xrow : Vec Ideal S1x10000x16 .f32) (acc : Vec Ideal S1x1x16 .f32) (j : Fin 16) :
    rowAcc (F := Ideal) mk xrow acc (ix3 (0 : Fin 1) (0 : Fin 1) j)
      = acc (ix3 0 0 j) + ∑ r : Fin 10000, (xrow (ix3 0 r j) - mk (ix2 r j)) * (xrow (ix3 0 r j) - mk (ix2 r j)) := by
  unfold rowAcc
  refine (shapeCast_apply _ shapeCasts_S16_S1x1x16 (ix3 (0 : Fin 1) (0 : Fin 1) j) (ix1 j) (by
        rw [Shape.rowMajor_val_one, Shape.rowMajor_val_three]; show j.val = ((0 * 1 + 0) * 16 + j.val); omega)).trans ?_
  refine (addf_apply _ _ _).trans ?_
  refine congrArg₂ (· + ·) (shapeCast_apply acc shapeCasts_S1x1x16_S16 (ix1 j) (ix3 (0 : Fin 1) (0 : Fin 1) j) (by
        rw [Shape.rowMajor_val_one, Shape.rowMajor_val_three]; show ((0 * 1 + 0) * 16 + j.val) = j.val; omega)) ?_
  refine (Ideal.multiReduction_add_single _ 0x00000000#32 reduces_S10000x16_S16 (.inl rfl) rfl (ix1 j)).trans ?_
  refine Finset.sum_congr rfl fun r _ => ?_
  have e : reduces_S10000x16_S16.lift (ix1 j) r = ix2 r j := by
    funext a
    match a with
    | ⟨0, _⟩ => rfl
    | ⟨1, _⟩ => rfl
  have ex : shapeCast S10000x16 xrow shapeCasts_S1x10000x16_S10000x16 (ix2 r j) = xrow (ix3 (0 : Fin 1) r j) :=
    shapeCast_apply xrow shapeCasts_S1x10000x16_S10000x16 (ix2 r j) (ix3 (0 : Fin 1) r j) (by
        rw [Shape.rowMajor_val_two, Shape.rowMajor_val_three]; show ((0 * 10000 + r.val) * 16 + j.val) = r.val * 16 + j.val; omega)
  rw [e]
  show (shapeCast S10000x16 xrow shapeCasts_S1x10000x16_S10000x16 (ix2 r j) - mk (ix2 r j))
      * (shapeCast S10000x16 xrow shapeCasts_S1x10000x16_S10000x16 (ix2 r j) - mk (ix2 r j)) = _
  rw [ex]

end Cert.KernelIdeal.Rows

end
-- ==== Proof.Pieces.lean ====
import proofs.«148329_j22643067584813_2_alg».proof.Proof.Gen.KernelIdeal.Frame
import proofs.«148329_j22643067584813_2_alg».proof.Proof.Rows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What one run of the kernel body leaves in the two output blocks, entry by entry.

  Each output block is `[1,3,16]`: one row per task. The body writes it row by row; row `t` receives the
  row's previous contents plus the sum over the 10000 rows of the input block of `(x[t,r,j] - mask[r,j])²`,
  the mask taken from target column 0 for the first output and from column 1 for the second. At the first
  step along the reduction axis the body first fills the block with zeros, so the previous contents are `0`.
-/

namespace Cert.KernelIdeal.Pieces

open Cert.KernelIdeal Cert.KernelIdeal.Gen Cert.KernelIdeal.Rows Cert.OrdinalSums
open Idealize.ShloMosaic.ValueIdx Idealize.ShloMosaic.Tactic

theorem hz3 : (![0, 0, 0] : Fin 3 → Nat) = fun _ => 0 := funext fun a => by fin_cases a <;> rfl

section Generic
variable {Val : EltTy → Type} [∀ e, Nonempty (Val e)]

/-- A row store at the head of the list decides the block's entries in its own row. -/
theorem canon_row_hit (off : Fin 3 → Nat) (inb : ∀ a, off a + S1x1x16.size a ≤ S1x3x16.size a)
    (w : S1x1x16.Idx → Val .f32) (L : List (View.Piece Val S1x3x16 .f32)) (t : Fin 3) (j : Fin 16)
    (h0 : off 0 = 0) (h1 : off 1 = t.val) (h2 : off 2 = 0) :
    View.canon ((⟨Rect.unit (s := S1x3x16) off S1x1x16.size inb, w⟩ : View.Piece Val S1x3x16 .f32) :: L) (ix3 (0 : Fin 1) t j)
      = w (ix3 (0 : Fin 1) (0 : Fin 1) j) := by
  have e : (ix3 (0 : Fin 1) t j : S1x3x16.Idx) = (Rect.unit (s := S1x3x16) off S1x1x16.size inb).emb (ix3 (0 : Fin 1) (0 : Fin 1) j) :=
    funext fun a => Fin.ext (by
      match a with
      | ⟨0, _⟩ => show 0 = off 0 + 1 * 0; omega
      | ⟨1, _⟩ => show t.val = off 1 + 1 * 0; omega
      | ⟨2, _⟩ => show j.val = off 2 + 1 * j.val; omega)
  rw [e]
  exact View.canon_cons_emb (Rect.unit (s := S1x3x16) off S1x1x16.size inb) w L _

/-- A row store of another row leaves the entry to the earlier stores. -/
theorem canon_row_miss (off : Fin 3 → Nat) (inb : ∀ a, off a + S1x1x16.size a ≤ S1x3x16.size a)
    (w : S1x1x16.Idx → Val .f32) (L : List (View.Piece Val S1x3x16 .f32)) (t : Fin 3) (j : Fin 16)
    (h1 : off 1 ≠ t.val) :
    View.canon ((⟨Rect.unit (s := S1x3x16) off S1x1x16.size inb, w⟩ : View.Piece Val S1x3x16 .f32) :: L) (ix3 (0 : Fin 1) t j)
      = View.canon L (ix3 (0 : Fin 1) t j) :=
  View.canon_cons_of_not_mem _ L (fun h => by
    have h' := (Rect.mem_set_unit (s := S1x3x16) (off := off) (size := S1x1x16.size) (inb := inb)).mp h 1
    have h'' : off 1 ≤ t.val ∧ t.val < off 1 + 1 := h'
    omega)

/-- A store of the whole block at the head decides every entry. -/
theorem canon_whole (inb : ∀ a, (![0, 0, 0] : Fin 3 → Nat) a + S1x3x16.size a ≤ S1x3x16.size a)
    (w : S1x3x16.Idx → Val .f32) (L : List (View.Piece Val S1x3x16 .f32)) (y : S1x3x16.Idx) :
    View.canon ((⟨Rect.unit (s := S1x3x16) ![0, 0, 0] S1x3x16.size inb, w⟩ : View.Piece Val S1x3x16 .f32) :: L) y = w y :=
  congrFun (View.canon_cons_unit_zero hz3 inb w L) y

/-- A load of row `t` of the block after the stores `L` reads what they leave in that row. -/
theorem readCov_row {sig : RefSig} {κ : Kind} {sp : Space} (v : View sig κ sp S1x3x16 .f32)
    (L : List (View.Piece Val S1x3x16 .f32)) (off : Fin 3 → Nat) (inb : ∀ a, off a + S1x1x16.size a ≤ S1x3x16.size a)
    (t : Fin 3) (j : Fin 16) (h0 : off 0 = 0) (h1 : off 1 = t.val) (h2 : off 2 = 0) :
    v.readCov L (Rect.unit (s := S1x3x16) off S1x1x16.size inb).toLoadRect (ix3 (0 : Fin 1) (0 : Fin 1) j)
      = View.canon L (ix3 (0 : Fin 1) t j) := by
  rw [View.readCov_eq_canon']
  show View.canon L ((Rect.unit (s := S1x3x16) off S1x1x16.size inb).idx (ix3 (0 : Fin 1) (0 : Fin 1) j)) = _
  refine congrArg (View.canon L) (funext fun a => Fin.ext ?_)
  match a with
  | ⟨0, _⟩ => show off 0 + 1 * 0 = 0; omega
  | ⟨1, _⟩ => show off 1 + 1 * 0 = t.val; omega
  | ⟨2, _⟩ => show off 2 + 1 * j.val = j.val; omega

/-- A load of row `t` of a block holding `X`. -/
theorem ld_row (X : S1x3x16.Idx → Val .f32) (off : Fin 3 → Nat) (inb : ∀ a, off a + S1x1x16.size a ≤ S1x3x16.size a)
    (t : Fin 3) (j : Fin 16) (h0 : off 0 = 0) (h1 : off 1 = t.val) (h2 : off 2 = 0) :
    View.ld X (Rect.unit (s := S1x3x16) off S1x1x16.size inb) (ix3 (0 : Fin 1) (0 : Fin 1) j) = X (ix3 (0 : Fin 1) t j) := by
  show X ((Rect.unit (s := S1x3x16) off S1x1x16.size inb).idx (ix3 (0 : Fin 1) (0 : Fin 1) j)) = _
  refine congrArg X (funext fun a => Fin.ext ?_)
  match a with
  | ⟨0, _⟩ => show off 0 + 1 * 0 = 0; omega
  | ⟨1, _⟩ => show off 1 + 1 * 0 = t.val; omega
  | ⟨2, _⟩ => show off 2 + 1 * j.val = j.val; omega

end Generic

/-- The zero block, entry by entry. -/
theorem zeros_apply (y : S1x3x16.Idx) : k0_pay3 (F := Ideal) y = 0 := by
  show Ideal.ofBits .f32 0x00000000#32 = 0
  exact Ideal.ofBits_zero_f32

/-- One accumulating row over loads of the two input blocks: task `t`'s slab of the scores and column `k` of
    the targets. -/
theorem row_value (x0 : Vec Ideal S3x10000x16 .f32) (x1 : Vec Ideal S10000x3 .i32) (acc : Vec Ideal S1x1x16 .f32)
    (o1 : Fin 2 → Nat) (inb1 : ∀ a, o1 a + S10000x1.size a ≤ S10000x3.size a)
    (o0 : Fin 3 → Nat) (inb0 : ∀ a, o0 a + S1x10000x16.size a ≤ S3x10000x16.size a)
    (t : Fin 3) (k : Fin 3) (j : Fin 16)
    (h10 : o1 0 = 0) (h11 : o1 1 = k.val) (h00 : o0 0 = t.val) (h01 : o0 1 = 0) (h02 : o0 2 = 0) :
    rowAcc (F := Ideal) (k0_pay5 (View.ld x1 (Rect.unit (s := S10000x3) o1 S10000x1.size inb1)))
        (View.ld x0 (Rect.unit (s := S3x10000x16) o0 S1x10000x16.size inb0)) acc (ix3 (0 : Fin 1) (0 : Fin 1) j)
      = acc (ix3 0 0 j) + ∑ r : Fin 10000, term (x0 (ix3 t r j)) (x1 (ix2 r k)) j := by
  refine (rowAcc_apply _ _ acc j).trans ?_
  refine congrArg (_ + ·) (Finset.sum_congr rfl fun r _ => ?_)
  rw [mask_apply]
  have e0 : (Rect.unit (s := S3x10000x16) o0 S1x10000x16.size inb0).idx (ix3 (0 : Fin 1) r j) = ix3 t r j :=
    funext fun a => Fin.ext (by
      match a with
      | ⟨0, _⟩ => show o0 0 + 1 * 0 = t.val; omega
      | ⟨1, _⟩ => show o0 1 + 1 * r.val = r.val; omega
      | ⟨2, _⟩ => show o0 2 + 1 * j.val = j.val; omega)
  have e1 : (Rect.unit (s := S10000x3) o1 S10000x1.size inb1).idx (ix2 r (0 : Fin 1)) = ix2 r k :=
    funext fun a => Fin.ext (by
      match a with
      | ⟨0, _⟩ => show o1 0 + 1 * r.val = r.val; omega
      | ⟨1, _⟩ => show o1 1 + 1 * 0 = k.val; omega)
  show (x0 ((Rect.unit (s := S3x10000x16) o0 S1x10000x16.size inb0).idx (ix3 (0 : Fin 1) r j))
        - msk (x1 ((Rect.unit (s := S10000x3) o1 S10000x1.size inb1).idx (ix2 r (0 : Fin 1)))) j)
      * (x0 ((Rect.unit (s := S3x10000x16) o0 S1x10000x16.size inb0).idx (ix3 (0 : Fin 1) r j))
        - msk (x1 ((Rect.unit (s := S10000x3) o1 S10000x1.size inb1).idx (ix2 r (0 : Fin 1)))) j) = _
  rw [e0, e1]
  rfl

end Cert.KernelIdeal.Pieces

end
-- ==== Proof.PiecesFirst.lean ====
import proofs.«148329_j22643067584813_2_alg».proof.Proof.Pieces

set_option maxRecDepth 16384

noncomputable section

open Idealize.ShloMosaic Idealize.ShloMosaic.TcCoe Idealize.SL.Sem
open Idealize.ShloMosaic.Pipeline (Dat)

/-!
  The two output blocks after the first step along the reduction axis: the zero fill is overwritten row by
  row with the input block's column sums.
-/

namespace Cert.KernelIdeal.Pieces
open Cert.KernelIdeal Cert.KernelIdeal.Gen Cert.KernelIdeal.Rows Cert.OrdinalSums
open Idealize.ShloMosaic.ValueIdx Idealize.ShloMosaic.Tactic

/-- The first step along the reduction axis, output 2: the block is zeroed, then row `t` receives the block's column
    sums for target column 0. -/
theorem outA2_apply (c : Dev nD) (i : grid0.Coords) (a2 : Memref sig .tc .vmem S3x10000x16 .f32) (h2 : a2.IsWhole)
    (a3 : Memref sig .tc .vmem S10000x3 .i32) (h3 : a3.IsWhole) (a4 : Memref sig .tc .vmem S1x3x16 .f32) (h4 : a4.IsWhole)
    (a5 : Memref sig .tc .vmem S1x3x16 .f32) (h5 : a5.IsWhole) (hc : cond0_0 i)
    (x0 : Vec Ideal S3x10000x16 .f32) (x1 : Vec Ideal S10000x3 .i32)
    (t : Fin 3) (j : Fin 16) :
    out0_A_2 (F := Ideal) c i a2 h2 a3 h3 a4 h4 a5 h5 hc x0 x1 (ix3 (0 : Fin 1) t j)
      = ∑ r : Fin 10000, term (x0 (ix3 t r j)) (x1 (ix2 r (0 : Fin 3))) j := by
  unfold out0_A_2
  rw [View.read_writes_eq_canon _ _ _ (cover0_A_2 c i a2 h2 a3 h3 a4 h4 a5 h5 hc x0 x1)]
  unfold kernelRun0_A
  dsimp only
  sl_unfold_words
  simp only [View.readAt_eq_ld, h2.read_unread, h3.read_unread, pay6_eq, pay8_eq, pay10_eq, pay12_eq, pay13_eq, pay1_eq, pay2_eq]
  match t with
  | ⟨0, _⟩ =>
    refine (canon_row_miss ![0, 2, 0] _ _ _ (0 : Fin 3) j (by decide)).trans ?_
    refine (canon_row_miss ![0, 1, 0] _ _ _ (0 : Fin 3) j (by decide)).trans ?_
    refine (canon_row_hit ![0, 0, 0] _ _ _ (0 : Fin 3) j rfl rfl rfl).trans ?_
    refine (row_value x0 x1 _ ![0, 0] _ ![0, 0, 0] _ (0 : Fin 3) (0 : Fin 3) j rfl rfl rfl rfl rfl).trans ?_
    refine (congrArg (· + _) ?_).trans (zero_add _)
    refine (readCov_row _ _ ![0, 0, 0] _ (0 : Fin 3) j rfl rfl rfl).trans ?_
    exact (canon_whole _ _ _ _).trans (zeros_apply _)
  | ⟨1, _⟩ =>
    refine (canon_row_miss ![0, 2, 0] _ _ _ (1 : Fin 3) j (by decide)).trans ?_
    refine (canon_row_hit ![0, 1, 0] _ _ _ (1 : Fin 3) j rfl rfl rfl).trans ?_
    refine (row_value x0 x1 _ ![0, 0] _ ![1, 0, 0] _ (1 : Fin 3) (0 : Fin 3) j rfl rfl rfl rfl rfl).trans ?_
    refine (congrArg (· + _) ?_).trans (zero_add _)
    refine (readCov_row _ _ ![0, 1, 0] _ (1 : Fin 3) j rfl rfl rfl).trans ?_
    refine (canon_row_miss ![0, 0, 0] _ _ _ (1 : Fin 3) j (by decide)).trans ?_
    exact (canon_whole _ _ _ _).trans (zeros_apply _)
  | ⟨2, _⟩ =>
    refine (canon_row_hit ![0, 2, 0] _ _ _ (2 : Fin 3) j rfl rfl rfl).trans ?_
    refine (row_value x0 x1 _ ![0, 0] _ ![2, 0, 0] _ (2 : Fin 3) (0 : Fin 3) j rfl rfl rfl rfl rfl).trans ?_
    refine (congrArg (· + _) ?_).trans (zero_add _)
    refine (readCov_row _ _ ![0, 2, 0] _ (2 : Fin 3) j rfl rfl rfl).trans ?_
    refine (canon_row_miss ![0, 1, 0] _ _ _ (2 : Fin 3) j (by decide)).trans ?_
    refine (canon_row_miss ![0, 0, 0] _ _ _ (2 : Fin 3) j (by decide)).trans ?_
    exact (canon_whole _ _ _ _).trans (zeros_apply _)

/-- The first step along the reduction axis, output 3: the block is zeroed, then row `t` receives the block's column
    sums for target column 1. -/
theorem outA3_apply (c : Dev nD) (i : grid0.Coords) (a2 : Memref sig .tc .vmem S3x10000x16 .f32) (h2 : a2.IsWhole)
    (a3 : Memref sig .tc .vmem S10000x3 .i32) (h3 : a3.IsWhole) (a4 : Memref sig .tc .vmem S1x3x16 .f32) (h4 : a4.IsWhole)
    (a5 : Memref sig .tc .vmem S1x3x16 .f32) (h5 : a5.IsWhole) (hc : cond0_0 i)
    (x0 : Vec Ideal S3x10000x16 .f32) (x1 : Vec Ideal S10000x3 .i32)
    (t : Fin 3) (j : Fin 16) :
    out0_A_3 (F := Ideal) c i a2 h2 a3 h3 a4 h4 a5 h5 hc x0 x1 (ix3 (0 : Fin 1) t j)
      = ∑ r : Fin 10000, term (x0 (ix3 t r j)) (x1 (ix2 r (1 : Fin 3))) j := by
  unfold out0_A_3
  rw [View.read_writes_eq_canon _ _ _ (cover0_A_3 c i a2 h2 a3 h3 a4 h4 a5 h5 hc x0 x1)]
  unfold kernelRun0_A
  dsimp only
  sl_unfold_words
  simp only [View.readAt_eq_ld, h2.read_unread, h3.read_unread, pay6_eq, pay8_eq, pay10_eq, pay12_eq, pay13_eq, pay1_eq, pay2_eq]
  match t with
  | ⟨0, _⟩ =>
    refine (canon_row_miss ![0, 2, 0] _ _ _ (0 : Fin 3) j (by decide)).trans ?_
    refine (canon_row_miss ![0, 1, 0] _ _ _ (0 : Fin 3) j (by decide)).trans ?_
    refine (canon_row_hit ![0, 0, 0] _ _ _ (0 : Fin 3) j rfl rfl rfl).trans ?_
    refine (row_value x0 x1 _ ![0, 1] _ ![0, 0, 0] _ (0 : Fin 3) (1 : Fin 3) j rfl rfl rfl rfl rfl).trans ?_
    refine (congrArg (· + _) ?_).trans (zero_add _)
    refine (readCov_row _ _ ![0, 0, 0] _ (0 : Fin 3) j rfl rfl rfl).trans ?_
    exact (canon_whole _ _ _ _).trans (zeros_apply _)
  | ⟨1, _⟩ =>
    refine (canon_row_miss ![0, 2, 0] _ _ _ (1 : Fin 3) j (by decide)).trans ?_
    refine (canon_row_hit ![0, 1, 0] _ _ _ (1 : Fin 3) j rfl rfl rfl).trans ?_
    refine (row_value x0 x1 _ ![0, 1] _ ![1, 0, 0] _ (1 : Fin 3) (1 : Fin 3) j rfl rfl rfl rfl rfl).trans ?_
    refine (congrArg (· + _) ?_).trans (zero_add _)
    refine (readCov_row _ _ ![0, 1, 0] _ (1 : Fin 3) j rfl rfl rfl).trans ?_
    refine (canon_row_miss ![0, 0, 0] _ _ _ (1 : Fin 3) j (by decide)).trans ?_
    exact (canon_whole _ _ _ _).trans (zeros_apply _)
  | ⟨2, _⟩ =>
    refine (canon_row_hit ![0, 2, 0] _ _ _ (2 : Fin 3) j rfl rfl rfl).trans ?_
    refine (row_value x0 x1 _ ![0, 1] _ ![2, 0, 0] _ (2 : Fin 3) (1 : Fin 3) j rfl rfl rfl rfl rfl).trans ?_
    refine (congrArg (· + _) ?_).trans (zero_add _)
    refine (readCov_row _ _ ![0, 2, 0] _ (2 : Fin 3) j rfl rfl rfl).trans ?_
    refine (canon_row_miss ![0, 1, 0] _ _ _ (2 : Fin 3) j (by decide)).trans ?_
    refine (canon_row_miss ![0, 0, 0] _ _ _ (2 : Fin 3) j (by decide)).trans ?_
    exact (canon_whole _ _ _ _).trans (zeros_apply _)

end Cert.KernelIdeal.Pieces

end
-- ==== Proof.PiecesLater.lean ====
import proofs.«148329_j22643067584813_2_alg».proof.Proof.Pieces

set_option maxRecDepth 16384

noncomputable section

open Idealize.ShloMosaic Idealize.ShloMosaic.TcCoe Idealize.SL.Sem
open Idealize.ShloMosaic.Pipeline (Dat)

/-!
  The two output blocks after a step that is not the first along the reduction axis: each row is what the
  block held before plus the input block's column sums.
-/

namespace Cert.KernelIdeal.Pieces
open Cert.KernelIdeal Cert.KernelIdeal.Gen Cert.KernelIdeal.Rows Cert.OrdinalSums
open Idealize.ShloMosaic.ValueIdx Idealize.ShloMosaic.Tactic

/-- A later step along the reduction axis, output 2: row `t` gains the block's column sums for target column 0. -/
theorem outB2_apply (c : Dev nD) (i : grid0.Coords) (a2 : Memref sig .tc .vmem S3x10000x16 .f32) (h2 : a2.IsWhole)
    (a3 : Memref sig .tc .vmem S10000x3 .i32) (h3 : a3.IsWhole) (a4 : Memref sig .tc .vmem S1x3x16 .f32) (h4 : a4.IsWhole)
    (a5 : Memref sig .tc .vmem S1x3x16 .f32) (h5 : a5.IsWhole) (hc : ¬cond0_0 i)
    (x0 : Vec Ideal S3x10000x16 .f32) (x1 : Vec Ideal S10000x3 .i32) (xo2 xo3 : Vec Ideal S1x3x16 .f32)
    (t : Fin 3) (j : Fin 16) :
    out0_B_2 (F := Ideal) c i a2 h2 a3 h3 a4 h4 a5 h5 hc x0 x1 xo2 xo3 (ix3 (0 : Fin 1) t j)
      = xo2 (ix3 (0 : Fin 1) t j) + ∑ r : Fin 10000, term (x0 (ix3 t r j)) (x1 (ix2 r (0 : Fin 3))) j := by
  unfold out0_B_2
  rw [View.read_writes_eq_canon _ _ _ (cover0_B_2 c i a2 h2 a3 h3 a4 h4 a5 h5 hc x0 x1 xo2 xo3)]
  unfold kernelRun0_B
  dsimp only
  sl_unfold_words
  simp only [View.readAt_eq_ld, h2.read_unread, h3.read_unread, h4.read_unread, pay6_eq, pay8_eq, pay10_eq, pay12_eq, pay13_eq, pay1_eq, pay2_eq]
  match t with
  | ⟨0, _⟩ =>
    refine (canon_row_miss ![0, 2, 0] _ _ _ (0 : Fin 3) j (by decide)).trans ?_
    refine (canon_row_miss ![0, 1, 0] _ _ _ (0 : Fin 3) j (by decide)).trans ?_
    refine (canon_row_hit ![0, 0, 0] _ _ _ (0 : Fin 3) j rfl rfl rfl).trans ?_
    refine (row_value x0 x1 _ ![0, 0] _ ![0, 0, 0] _ (0 : Fin 3) (0 : Fin 3) j rfl rfl rfl rfl rfl).trans ?_
    exact congrArg (· + _) (ld_row xo2 ![0, 0, 0] _ (0 : Fin 3) j rfl rfl rfl)
  | ⟨1, _⟩ =>
    refine (canon_row_miss ![0, 2, 0] _ _ _ (1 : Fin 3) j (by decide)).trans ?_
    refine (canon_row_hit ![0, 1, 0] _ _ _ (1 : Fin 3) j rfl rfl rfl).trans ?_
    refine (row_value x0 x1 _ ![0, 0] _ ![1, 0, 0] _ (1 : Fin 3) (0 : Fin 3) j rfl rfl rfl rfl rfl).trans ?_
    exact congrArg (· + _) (ld_row xo2 ![0, 1, 0] _ (1 : Fin 3) j rfl rfl rfl)
  | ⟨2, _⟩ =>
    refine (canon_row_hit ![0, 2, 0] _ _ _ (2 : Fin 3) j rfl rfl rfl).trans ?_
    refine (row_value x0 x1 _ ![0, 0] _ ![2, 0, 0] _ (2 : Fin 3) (0 : Fin 3) j rfl rfl rfl rfl rfl).trans ?_
    exact congrArg (· + _) (ld_row xo2 ![0, 2, 0] _ (2 : Fin 3) j rfl rfl rfl)

/-- A later step along the reduction axis, output 3: row `t` gains the block's column sums for target column 1. -/
theorem outB3_apply (c : Dev nD) (i : grid0.Coords) (a2 : Memref sig .tc .vmem S3x10000x16 .f32) (h2 : a2.IsWhole)
    (a3 : Memref sig .tc .vmem S10000x3 .i32) (h3 : a3.IsWhole) (a4 : Memref sig .tc .vmem S1x3x16 .f32) (h4 : a4.IsWhole)
    (a5 : Memref sig .tc .vmem S1x3x16 .f32) (h5 : a5.IsWhole) (hc : ¬cond0_0 i)
    (x0 : Vec Ideal S3x10000x16 .f32) (x1 : Vec Ideal S10000x3 .i32) (xo2 xo3 : Vec Ideal S1x3x16 .f32)
    (t : Fin 3) (j : Fin 16) :
    out0_B_3 (F := Ideal) c i a2 h2 a3 h3 a4 h4 a5 h5 hc x0 x1 xo2 xo3 (ix3 (0 : Fin 1) t j)
      = xo3 (ix3 (0 : Fin 1) t j) + ∑ r : Fin 10000, term (x0 (ix3 t r j)) (x1 (ix2 r (1 : Fin 3))) j := by
  unfold out0_B_3
  rw [View.read_writes_eq_canon _ _ _ (cover0_B_3 c i a2 h2 a3 h3 a4 h4 a5 h5 hc x0 x1 xo2 xo3)]
  unfold kernelRun0_B
  dsimp only
  sl_unfold_words
  simp only [View.readAt_eq_ld, h2.read_unread, h3.read_unread, h5.read_unread, pay6_eq, pay8_eq, pay10_eq, pay12_eq, pay13_eq, pay1_eq, pay2_eq]
  match t with
  | ⟨0, _⟩ =>
    refine (canon_row_miss ![0, 2, 0] _ _ _ (0 : Fin 3) j (by decide)).trans ?_
    refine (canon_row_miss ![0, 1, 0] _ _ _ (0 : Fin 3) j (by decide)).trans ?_
    refine (canon_row_hit ![0, 0, 0] _ _ _ (0 : Fin 3) j rfl rfl rfl).trans ?_
    refine (row_value x0 x1 _ ![0, 1] _ ![0, 0, 0] _ (0 : Fin 3) (1 : Fin 3) j rfl rfl rfl rfl rfl).trans ?_
    exact congrArg (· + _) (ld_row xo3 ![0, 0, 0] _ (0 : Fin 3) j rfl rfl rfl)
  | ⟨1, _⟩ =>
    refine (canon_row_miss ![0, 2, 0] _ _ _ (1 : Fin 3) j (by decide)).trans ?_
    refine (canon_row_hit ![0, 1, 0] _ _ _ (1 : Fin 3) j rfl rfl rfl).trans ?_
    refine (row_value x0 x1 _ ![0, 1] _ ![1, 0, 0] _ (1 : Fin 3) (1 : Fin 3) j rfl rfl rfl rfl rfl).trans ?_
    exact congrArg (· + _) (ld_row xo3 ![0, 1, 0] _ (1 : Fin 3) j rfl rfl rfl)
  | ⟨2, _⟩ =>
    refine (canon_row_hit ![0, 2, 0] _ _ _ (2 : Fin 3) j rfl rfl rfl).trans ?_
    refine (row_value x0 x1 _ ![0, 1] _ ![2, 0, 0] _ (2 : Fin 3) (1 : Fin 3) j rfl rfl rfl rfl rfl).trans ?_
    exact congrArg (· + _) (ld_row xo3 ![0, 2, 0] _ (2 : Fin 3) j rfl rfl rfl)

end Cert.KernelIdeal.Pieces

end
-- ==== Proof.Blocks.lean ====
import proofs.«148329_j22643067584813_2_alg».proof.Proof.Gen.KernelIdeal.Frame
import proofs.«148329_j22643067584813_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)

/-!
  The input blocks the pipeline hands the body at grid point `p`.

  The grid is `2 × 50`, walked row-major, and both index maps send point `p = 50·c + i` to block number `p`
  along the batch axis: the scores' block at `p` is rows `10000·p … 10000·p + 9999` of every task, the
  targets' block the same rows of the target array. So the column sums the body adds at point `p` are the
  block sum number `p` of the whole-batch sum.
-/

namespace Cert.KernelIdeal.Blocks

open Cert.KernelIdeal Cert.KernelIdeal.Gen Cert.OrdinalSums Idealize.ShloMosaic.ValueIdx

variable (m : (ℓ : Loc nD τ sig) → Buf (Elt Ideal) ℓ)

/-- The scores' block index at point `p`: block `p` along the batch axis. -/
theorem index_scores : ∀ p : Fin cfg0.N, win0_0.index p 0 = 0 ∧ win0_0.index p 1 = p.val ∧ win0_0.index p 2 = 0 :=
  (by decide +kernel : ∀ p : Fin grid0.N, win0_0.index p 0 = 0 ∧ win0_0.index p 1 = p.val ∧ win0_0.index p 2 = 0)

/-- The targets' block index at point `p`: block `p` along the batch axis. -/
theorem index_targets : ∀ p : Fin cfg0.N, win0_1.index p 0 = p.val ∧ win0_1.index p 1 = 0 :=
  (by decide +kernel : ∀ p : Fin grid0.N, win0_1.index p 0 = p.val ∧ win0_1.index p 1 = 0)

/-- The scores' block at point `p`, entry `(t, r, j)`: the array at batch row `10000·p + r`. -/
theorem scores_apply (c : Dev nD) (p : Fin cfg0.N) (t : Fin 3) (r : Fin 10000) (j : Fin 16)
    (hb : 10000 * p.val + r.val < 1000000) :
    (iblk m c 0 p : Vec Ideal S3x10000x16 .f32) (ix3 t r j)
      = m ((c : Thread nD τ).loc main_arg0) (ix3 t ⟨10000 * p.val + r.val, hb⟩ j) := by
  obtain ⟨i0, i1, i2⟩ := index_scores p
  unfold iblk
  rw [View.read_apply]
  show V m c main_arg0 _ = m ((c : Thread nD τ).loc main_arg0) _
  rw [V_main_arg0]
  congr 1
  funext a
  apply Fin.ext
  match a with
  | ⟨0, _⟩ => show win0_0.index p 0 * 3 + 1 * t.val = t.val; rw [i0]; omega
  | ⟨1, _⟩ => show win0_0.index p 1 * 10000 + 1 * r.val = 10000 * p.val + r.val; rw [i1]; omega
  | ⟨2, _⟩ => show win0_0.index p 2 * 16 + 1 * j.val = j.val; rw [i2]; omega

/-- The targets' block at point `p`, entry `(r, k)`: the array at batch row `10000·p + r`. -/
theorem targets_apply (c : Dev nD) (p : Fin cfg0.N) (r : Fin 10000) (k : Fin 3)
    (hb : 10000 * p.val + r.val < 1000000) :
    (iblk m c 1 p : Vec Ideal S10000x3 .i32) (ix2 r k)
      = m ((c : Thread nD τ).loc main_arg1) (ix2 ⟨10000 * p.val + r.val, hb⟩ k) := by
  obtain ⟨i0, i1⟩ := index_targets p
  unfold iblk
  rw [View.read_apply]
  show V m c main_arg1 _ = m ((c : Thread nD τ).loc main_arg1) _
  rw [V_main_arg1]
  congr 1
  funext a
  apply Fin.ext
  match a with
  | ⟨0, _⟩ => show win0_1.index p 0 * 10000 + 1 * r.val = 10000 * p.val + r.val; rw [i0]; omega
  | ⟨1, _⟩ => show win0_1.index p 1 * 3 + 1 * k.val = k.val; rw [i1]; omega

/-- The column sums over the blocks at point `p` are block sum number `p` of the two arrays. -/
theorem blockSum_eq (c : Dev nD) (p : Fin cfg0.N) (k : Fin 3) (t : Fin 3) (j : Fin 16) :
    ∑ r : Fin 10000, term ((iblk m c 0 p : Vec Ideal S3x10000x16 .f32) (ix3 t r j))
        ((iblk m c 1 p : Vec Ideal S10000x3 .i32) (ix2 r k)) j
      = blockSum (m ((c : Thread nD τ).loc main_arg0)) (m ((c : Thread nD τ).loc main_arg1)) k t j p.val := by
  have hp : p.val < 100 := lt_of_lt_of_eq p.isLt N_0
  unfold blockSum
  refine Finset.sum_congr rfl fun r _ => ?_
  have hb : 10000 * p.val + r.val < 1000000 := by have := r.isLt; omega
  rw [scores_apply m c p t r j hb, targets_apply m c p r k hb]
  unfold rowTerm
  rw [dif_pos hb]

end Cert.KernelIdeal.Blocks

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.Regroup.lean ====
/-
  The order in which the kernel adds up the batch, against one sum over the whole batch.

  Along the reduction axis the kernel keeps a running value that is reset to the first block sum at every
  point whose number is a multiple of 50 and otherwise grows by the point's block sum; after the last point
  of a run of 50 it holds the sum of the run's 50 block sums (`running_eq`). The two runs' values — one per
  value of the outer grid coordinate — add up to the sum of all 100 block sums, and 100 blocks of 10000
  rows are the whole batch (`partial_add`). Only associativity and commutativity of addition on the
  extended reals are used.
-/
import proofs.«148329_j22643067584813_2_alg».proof.Proof.Spec
import proofs.«148329_j22643067584813_2_alg».proof.Proof.LibTileSum

noncomputable section

open scoped BigOperators

namespace Cert.OrdinalSums

open Idealize.ShloMosaic Finset

/-- The running value along the grid points: reset at the multiples of 50, otherwise accumulated. -/
def running (B : ℕ → EReal) : ℕ → EReal
  | 0 => B 0
  | n + 1 => if (n + 1) % 50 = 0 then B (n + 1) else running B n + B (n + 1)

theorem running_reset (B : ℕ → EReal) (n : ℕ) (h : n % 50 = 0) : running B n = B n := by
  cases n with
  | zero => rfl
  | succ n => exact if_pos h

theorem running_step (B : ℕ → EReal) (n : ℕ) (h : ¬(n + 1) % 50 = 0) : running B (n + 1) = running B n + B (n + 1) :=
  if_neg h

/-- Within run `c`, after `i + 1` points the running value is the sum of the run's first `i + 1` block sums. -/
theorem running_eq (B : ℕ → EReal) (c : ℕ) : ∀ i, i < 50 → running B (50 * c + i) = ∑ s ∈ range (i + 1), B (50 * c + s)
  | 0, _ => by
    rw [Nat.add_zero, running_reset B _ (by omega), Finset.sum_range_one, Nat.add_zero]
  | i + 1, h => by
    rw [show 50 * c + (i + 1) = (50 * c + i) + 1 from rfl, running_step B _ (by omega), running_eq B c i (by omega),
      Finset.sum_range_succ (fun s => B (50 * c + s)) (i + 1)]
    rfl

/-- What run `c` of 50 points leaves: the sum of its 50 block sums. -/
def partialSum (x : (⟨3, ![3, 1000000, 16]⟩ : Shape).Idx → EReal) (tg : (⟨2, ![1000000, 3]⟩ : Shape).Idx → BitVec 32)
    (k : Fin 3) (c : ℕ) (t : Fin 3) (j : Fin 16) : EReal :=
  ∑ s ∈ range 50, blockSum x tg k t j (50 * c + s)

/-- The two runs together are the whole batch. -/
theorem partial_add (x : (⟨3, ![3, 1000000, 16]⟩ : Shape).Idx → EReal) (tg : (⟨2, ![1000000, 3]⟩ : Shape).Idx → BitVec 32)
    (k : Fin 3) (t : Fin 3) (j : Fin 16) :
    partialSum x tg k 0 t j + partialSum x tg k 1 t j = total x tg k t j := by
  unfold partialSum total
  have h := Cert.TileSum.sum_tiles 10000 (rowTerm x tg k t j) 100
  refine Eq.trans ?_ h
  rw [show (100 : ℕ) = 50 + 50 from rfl, Finset.sum_range_add]
  simp only [Nat.mul_zero, Nat.zero_add, Nat.mul_one]
  rfl

end Cert.OrdinalSums

end
-- ==== Proof.Accum.lean ====
import proofs.«148329_j22643067584813_2_alg».proof.Proof.PiecesFirst
import proofs.«148329_j22643067584813_2_alg».proof.Proof.PiecesLater
import proofs.«148329_j22643067584813_2_alg».proof.Proof.Blocks
import proofs.«148329_j22643067584813_2_alg».proof.Proof.Regroup

set_option maxRecDepth 16384

noncomputable section

open Idealize.ShloMosaic Idealize.ShloMosaic.TcCoe Idealize.SL.Sem
open Idealize.ShloMosaic.Pipeline (Dat)

/-!
  What the two output blocks hold after each grid point.

  Entry `(t, j)` of either block is the running value of the block sums along the points: at a point whose
  number is a multiple of 50 the body leaves the point's block sum, at any other point what the point before
  left plus the point's block sum. By induction on the point it is `running` of the block sums.
-/

namespace Cert.KernelIdeal.Accum

open Cert.KernelIdeal Cert.KernelIdeal.Gen Cert.KernelIdeal.Pieces Cert.KernelIdeal.Blocks Cert.OrdinalSums
open Idealize.ShloMosaic.ValueIdx

variable (m : (ℓ : Loc nD τ sig) → Buf (Elt Ideal) ℓ)

/-- The block sums of the two argument arrays on core `c`, for target column `k`, task `t`, level `j`. -/
abbrev B (c : Dev nD) (k : Fin 3) (t : Fin 3) (j : Fin 16) : ℕ → EReal :=
  blockSum (m ((c : Thread nD τ).loc main_arg0)) (m ((c : Thread nD τ).loc main_arg1)) k t j

/-- At the first point of a run both blocks hold the point's block sums. -/
theorem first_point (c : Dev nD) (p : Fin cfg0.N) (h0 : p.val % 50 = 0) (t : Fin 3) (j : Fin 16) :
    ((outsAt0 m c p.val p.isLt).1 : Vec Ideal S1x3x16 .f32) (ix3 (0 : Fin 1) t j) = B m c 0 t j p.val
    ∧ ((outsAt0 m c p.val p.isLt).2 : Vec Ideal S1x3x16 .f32) (ix3 (0 : Fin 1) t j) = B m c 1 t j p.val := by
  rw [outsAt0_A m c p h0]
  dsimp only
  exact ⟨(outA2_apply c (grid0.coords p) (ms0_0 p) (hs0_0 p) (ms0_1 p) (hs0_1 p) (ms0_2 p) (hs0_2 p) (ms0_3 p) (hs0_3 p) ((hcond0_0 p).mpr h0) (iblk m c 0 p) (iblk m c 1 p) t j).trans (blockSum_eq m c p 0 t j),
    (outA3_apply c (grid0.coords p) (ms0_0 p) (hs0_0 p) (ms0_1 p) (hs0_1 p) (ms0_2 p) (hs0_2 p) (ms0_3 p) (hs0_3 p) ((hcond0_0 p).mpr h0) (iblk m c 0 p) (iblk m c 1 p) t j).trans (blockSum_eq m c p 1 t j)⟩

/-- At any other point both blocks hold what the point before left plus the point's block sums. -/
theorem later_point (c : Dev nD) (p : Fin cfg0.N) (h0 : ¬p.val % 50 = 0) (t : Fin 3) (j : Fin 16) :
    ((outsAt0 m c p.val p.isLt).1 : Vec Ideal S1x3x16 .f32) (ix3 (0 : Fin 1) t j)
        = ((outsAt0 m c (p.val - 1) (Nat.lt_of_le_of_lt (Nat.sub_le _ _) p.isLt)).1 : Vec Ideal S1x3x16 .f32) (ix3 (0 : Fin 1) t j) + B m c 0 t j p.val
    ∧ ((outsAt0 m c p.val p.isLt).2 : Vec Ideal S1x3x16 .f32) (ix3 (0 : Fin 1) t j)
        = ((outsAt0 m c (p.val - 1) (Nat.lt_of_le_of_lt (Nat.sub_le _ _) p.isLt)).2 : Vec Ideal S1x3x16 .f32) (ix3 (0 : Fin 1) t j) + B m c 1 t j p.val := by
  rw [outsAt0_B m c p h0]
  dsimp only
  exact ⟨(outB2_apply c (grid0.coords p) (ms0_0 p) (hs0_0 p) (ms0_1 p) (hs0_1 p) (ms0_2 p) (hs0_2 p) (ms0_3 p) (hs0_3 p) (fun h => h0 ((hcond0_0 p).mp h)) (iblk m c 0 p) (iblk m c 1 p)
        (outsAt0 m c (p.val - 1) (Nat.lt_of_le_of_lt (Nat.sub_le _ _) p.isLt)).1 (outsAt0 m c (p.val - 1) (Nat.lt_of_le_of_lt (Nat.sub_le _ _) p.isLt)).2 t j).trans
      (congrArg (_ + ·) (blockSum_eq m c p 0 t j)),
    (outB3_apply c (grid0.coords p) (ms0_0 p) (hs0_0 p) (ms0_1 p) (hs0_1 p) (ms0_2 p) (hs0_2 p) (ms0_3 p) (hs0_3 p) (fun h => h0 ((hcond0_0 p).mp h)) (iblk m c 0 p) (iblk m c 1 p)
        (outsAt0 m c (p.val - 1) (Nat.lt_of_le_of_lt (Nat.sub_le _ _) p.isLt)).1 (outsAt0 m c (p.val - 1) (Nat.lt_of_le_of_lt (Nat.sub_le _ _) p.isLt)).2 t j).trans
      (congrArg (_ + ·) (blockSum_eq m c p 1 t j))⟩

/-- After point `n` both blocks hold the running values of the block sums. -/
theorem outsAt_eq (c : Dev nD) (t : Fin 3) (j : Fin 16) : ∀ (n : ℕ) (hn : n < cfg0.N),
    ((outsAt0 m c n hn).1 : Vec Ideal S1x3x16 .f32) (ix3 (0 : Fin 1) t j) = running (B m c 0 t j) n
    ∧ ((outsAt0 m c n hn).2 : Vec Ideal S1x3x16 .f32) (ix3 (0 : Fin 1) t j) = running (B m c 1 t j) n
  | 0, hn => first_point m c ⟨0, hn⟩ (Nat.zero_mod _) t j
  | n + 1, hn => by
    by_cases h0 : (n + 1) % 50 = 0
    · have h := first_point m c ⟨n + 1, hn⟩ h0 t j
      rw [running_reset _ _ h0, running_reset _ _ h0]
      exact h
    · have h := later_point m c ⟨n + 1, hn⟩ h0 t j
      obtain ⟨ih1, ih2⟩ := outsAt_eq c t j n (Nat.lt_of_succ_lt hn)
      rw [running_step _ _ h0, running_step _ _ h0, ← ih1, ← ih2]
      exact h

end Cert.KernelIdeal.Accum

end
-- ==== Proof.Final.lean ====
import proofs.«148329_j22643067584813_2_alg».proof.Proof.Accum

set_option maxRecDepth 16384

noncomputable section

open Idealize.ShloMosaic Idealize.ShloMosaic.TcCoe Idealize.SL.Sem
open Idealize.ShloMosaic.Pipeline (Dat)

/-!
  The two output arrays after the region.

  Each output window's block index follows the outer grid coordinate only, so its staging buffer is written
  back once per run of 50 points, after the run's last point, into slab `c` of the `[2,3,16]` array. The two
  slabs cover the array, and slab `c` receives run `c`'s partial sums.
-/

namespace Cert.KernelIdeal.Final

open Cert.KernelIdeal Cert.KernelIdeal.Gen Cert.KernelIdeal.Accum Cert.OrdinalSums
open Idealize.ShloMosaic.ValueIdx

variable (m : (ℓ : Loc nD τ sig) → Buf (Elt Ideal) ℓ)

/-- The per-run partial sums for target column `k`, as a `[2,3,16]` array: run, task, level. -/
def partials (k : Fin 3) (c : Dev nD) : S2x3x16.Idx → EReal := fun y =>
  partialSum (m ((c : Thread nD τ).loc main_arg0)) (m ((c : Thread nD τ).loc main_arg1)) k (y 0).val (y 1) (y 2)

/-! ### Output window 2 -/

/-- Its block index at point `t`: block `t / 50` along the leading axis. -/
theorem index_out2 : ∀ t : Fin cfg0.N, win0_2.index t 0 = t.val / 50 ∧ win0_2.index t 1 = 0 ∧ win0_2.index t 2 = 0 :=
  (by decide +kernel : ∀ t : Fin grid0.N, win0_2.index t 0 = t.val / 50 ∧ win0_2.index t 1 = 0 ∧ win0_2.index t 2 = 0)

/-- What the last point of a run writes back is that run's slab of the partial sums. -/
theorem flushed2_eq (c : Dev nD) (t : Fin cfg0.N) (hf : (cfg0.win 2).flush t = true) :
    (dats m 0 c).flushed 2 t = ((cfg0.win 2).blk t).view.read (Elt Ideal) (partials m 0 c) := by
  have h49 : t.val % 50 = 49 := (flush0_2 t).mp hf
  have hN : t.val < 100 := lt_of_lt_of_eq t.isLt N_0
  obtain ⟨e0, e1, e2⟩ := index_out2 t
  show (cfg0.win 2).cut (grid0.coords t) ((dats m 0 c).after 2 t) = _
  rw [after0_2]
  funext y
  obtain ⟨a, t', j, rfl⟩ : ∃ (a : Fin 1) (t' : Fin 3) (j : Fin 16), y = ix3 a t' j := ⟨y 0, y 1, y 2, eq_ix3 y⟩
  obtain rfl : a = 0 := Subsingleton.elim _ _
  rw [View.read_apply]
  have ht : t.val = 50 * (t.val / 50) + 49 := by omega
  refine ((outsAt_eq m c t' j t.val t.isLt).1).trans ?_
  refine ((congrArg (running (B m c 0 t' j)) ht).trans (running_eq _ (t.val / 50) 49 (by omega))).trans ?_
  have hemb : ((cfg0.win 2).blk t).view.emb (ix3 (0 : Fin 1) t' j) = ix3 (⟨t.val / 50, by omega⟩ : Fin 2) t' j := by
    funext a
    apply Fin.ext
    match a with
    | ⟨0, _⟩ => show win0_2.index t 0 * 1 + 1 * 0 = t.val / 50; rw [e0]; omega
    | ⟨1, _⟩ => show win0_2.index t 1 * 3 + 1 * t'.val = t'.val; rw [e1]; omega
    | ⟨2, _⟩ => show win0_2.index t 2 * 16 + 1 * j.val = j.val; rw [e2]; omega
  rw [hemb]
  rfl

/-- An index of the array is in point `t`'s block iff each coordinate is in the block's range on its axis. -/
theorem mem_blk2 (t : Fin cfg0.N) (i : S2x3x16.Idx) :
    i ∈ ((cfg0.win 2).blk t).view.set ↔ ∀ a : Fin 3, win0_2.index t a * S1x3x16.size a ≤ (i a).val ∧ (i a).val < win0_2.index t a * S1x3x16.size a + S1x3x16.size a := by
  show i ∈ ((View.whole main_v0_0).slice (win0_2.rect t)).set ↔ _
  rw [View.set_slice_whole, Rect.mem_set_unit]
  exact Iff.rfl

/-- Every index of the array is in the block some run's last point writes back. -/
theorem cover2 (i : S2x3x16.Idx) : ∃ t : Fin cfg0.N, (cfg0.win 2).flush t = true ∧ i ∈ ((cfg0.win 2).blk t).view.set := by
  have h0 : (i 0).val < 2 := (i 0).isLt
  have h1 : (i 1).val < 3 := (i 1).isLt
  have h2 : (i 2).val < 16 := (i 2).isLt
  have hlt : 50 * (i 0).val + 49 < cfg0.N := Nat.lt_of_lt_of_eq (by omega : 50 * (i 0).val + 49 < 100) (N_0.symm : 100 = cfg0.N)
  obtain ⟨e0, e1, e2⟩ := index_out2 ⟨50 * (i 0).val + 49, hlt⟩
  have e0' : win0_2.index ⟨50 * (i 0).val + 49, hlt⟩ 0 = (50 * (i 0).val + 49) / 50 := e0
  refine ⟨⟨50 * (i 0).val + 49, hlt⟩, (flush0_2 _).mpr (by show (50 * (i 0).val + 49) % 50 = 49; omega), ?_⟩
  rw [mem_blk2]
  intro a
  match a with
  | ⟨0, _⟩ =>
    show win0_2.index ⟨50 * (i 0).val + 49, hlt⟩ 0 * 1 ≤ (i 0).val ∧ (i 0).val < win0_2.index ⟨50 * (i 0).val + 49, hlt⟩ 0 * 1 + 1
    rw [e0']; omega
  | ⟨1, _⟩ =>
    show win0_2.index ⟨50 * (i 0).val + 49, hlt⟩ 1 * 3 ≤ (i 1).val ∧ (i 1).val < win0_2.index ⟨50 * (i 0).val + 49, hlt⟩ 1 * 3 + 3
    rw [e1]; omega
  | ⟨2, _⟩ =>
    show win0_2.index ⟨50 * (i 0).val + 49, hlt⟩ 2 * 16 ≤ (i 2).val ∧ (i 2).val < win0_2.index ⟨50 * (i 0).val + 49, hlt⟩ 2 * 16 + 16
    rw [e2]; omega

/-- The array after the region: the partial sums for target column 0. -/
theorem final2 (c : Dev nD) : (dats m 0 c).arrAt 2 cfg0.N = partials m 0 c :=
  (dats m 0 c).arrAt_eq_of_cover 2 (partials m 0 c) (flushed2_eq m c) cover2

/-! ### Output window 3 -/

/-- Its block index at point `t`: block `t / 50` along the leading axis. -/
theorem index_out3 : ∀ t : Fin cfg0.N, win0_3.index t 0 = t.val / 50 ∧ win0_3.index t 1 = 0 ∧ win0_3.index t 2 = 0 :=
  (by decide +kernel : ∀ t : Fin grid0.N, win0_3.index t 0 = t.val / 50 ∧ win0_3.index t 1 = 0 ∧ win0_3.index t 2 = 0)

/-- What the last point of a run writes back is that run's slab of the partial sums. -/
theorem flushed3_eq (c : Dev nD) (t : Fin cfg0.N) (hf : (cfg0.win 3).flush t = true) :
    (dats m 0 c).flushed 3 t = ((cfg0.win 3).blk t).view.read (Elt Ideal) (partials m 1 c) := by
  have h49 : t.val % 50 = 49 := (flush0_3 t).mp hf
  have hN : t.val < 100 := lt_of_lt_of_eq t.isLt N_0
  obtain ⟨e0, e1, e2⟩ := index_out3 t
  show (cfg0.win 3).cut (grid0.coords t) ((dats m 0 c).after 3 t) = _
  rw [after0_3]
  funext y
  obtain ⟨a, t', j, rfl⟩ : ∃ (a : Fin 1) (t' : Fin 3) (j : Fin 16), y = ix3 a t' j := ⟨y 0, y 1, y 2, eq_ix3 y⟩
  obtain rfl : a = 0 := Subsingleton.elim _ _
  rw [View.read_apply]
  have ht : t.val = 50 * (t.val / 50) + 49 := by omega
  refine ((outsAt_eq m c t' j t.val t.isLt).2).trans ?_
  refine ((congrArg (running (B m c 1 t' j)) ht).trans (running_eq _ (t.val / 50) 49 (by omega))).trans ?_
  have hemb : ((cfg0.win 3).blk t).view.emb (ix3 (0 : Fin 1) t' j) = ix3 (⟨t.val / 50, by omega⟩ : Fin 2) t' j := by
    funext a
    apply Fin.ext
    match a with
    | ⟨0, _⟩ => show win0_3.index t 0 * 1 + 1 * 0 = t.val / 50; rw [e0]; omega
    | ⟨1, _⟩ => show win0_3.index t 1 * 3 + 1 * t'.val = t'.val; rw [e1]; omega
    | ⟨2, _⟩ => show win0_3.index t 2 * 16 + 1 * j.val = j.val; rw [e2]; omega
  rw [hemb]
  rfl

/-- An index of the array is in point `t`'s block iff each coordinate is in the block's range on its axis. -/
theorem mem_blk3 (t : Fin cfg0.N) (i : S2x3x16.Idx) :
    i ∈ ((cfg0.win 3).blk t).view.set ↔ ∀ a : Fin 3, win0_3.index t a * S1x3x16.size a ≤ (i a).val ∧ (i a).val < win0_3.index t a * S1x3x16.size a + S1x3x16.size a := by
  show i ∈ ((View.whole main_v0_1).slice (win0_3.rect t)).set ↔ _
  rw [View.set_slice_whole, Rect.mem_set_unit]
  exact Iff.rfl

/-- Every index of the array is in the block some run's last point writes back. -/
theorem cover3 (i : S2x3x16.Idx) : ∃ t : Fin cfg0.N, (cfg0.win 3).flush t = true ∧ i ∈ ((cfg0.win 3).blk t).view.set := by
  have h0 : (i 0).val < 2 := (i 0).isLt
  have h1 : (i 1).val < 3 := (i 1).isLt
  have h2 : (i 2).val < 16 := (i 2).isLt
  have hlt : 50 * (i 0).val + 49 < cfg0.N := Nat.lt_of_lt_of_eq (by omega : 50 * (i 0).val + 49 < 100) (N_0.symm : 100 = cfg0.N)
  obtain ⟨e0, e1, e2⟩ := index_out3 ⟨50 * (i 0).val + 49, hlt⟩
  have e0' : win0_3.index ⟨50 * (i 0).val + 49, hlt⟩ 0 = (50 * (i 0).val + 49) / 50 := e0
  refine ⟨⟨50 * (i 0).val + 49, hlt⟩, (flush0_3 _).mpr (by show (50 * (i 0).val + 49) % 50 = 49; omega), ?_⟩
  rw [mem_blk3]
  intro a
  match a with
  | ⟨0, _⟩ =>
    show win0_3.index ⟨50 * (i 0).val + 49, hlt⟩ 0 * 1 ≤ (i 0).val ∧ (i 0).val < win0_3.index ⟨50 * (i 0).val + 49, hlt⟩ 0 * 1 + 1
    rw [e0']; omega
  | ⟨1, _⟩ =>
    show win0_3.index ⟨50 * (i 0).val + 49, hlt⟩ 1 * 3 ≤ (i 1).val ∧ (i 1).val < win0_3.index ⟨50 * (i 0).val + 49, hlt⟩ 1 * 3 + 3
    rw [e1]; omega
  | ⟨2, _⟩ =>
    show win0_3.index ⟨50 * (i 0).val + 49, hlt⟩ 2 * 16 ≤ (i 2).val ∧ (i 2).val < win0_3.index ⟨50 * (i 0).val + 49, hlt⟩ 2 * 16 + 16
    rw [e2]; omega

/-- The array after the region: the partial sums for target column 1. -/
theorem final3 (c : Dev nD) : (dats m 0 c).arrAt 3 cfg0.N = partials m 1 c :=
  (dats m 0 c).arrAt_eq_of_cover 3 (partials m 1 c) (flushed3_eq m c) cover3

end Cert.KernelIdeal.Final

end
-- ==== Proof.Results.lean ====
/-
  The three distinct results both programs return, as functions of the two argument arrays: the whole-batch
  sums for target columns 0 and 1, and the total `(l0 + l1) + l1` (the third partial loss repeats the second).
-/
import proofs.«148329_j22643067584813_2_alg».proof.Proof.Spec

noncomputable section

namespace Cert.OrdinalSums

open Idealize.ShloMosaic

/-- The whole-batch sums for target column `k`, as a `[3,16]` array: task, level. -/
def sums (x0 : (⟨3, ![3, 1000000, 16]⟩ : Shape).Idx → EReal) (x1 : (⟨2, ![1000000, 3]⟩ : Shape).Idx → BitVec 32) (k : Fin 3) :
    (⟨2, ![3, 16]⟩ : Shape).Idx → EReal := fun i => total x0 x1 k (i 0) (i 1)

/-- The total: `(l0 + l1) + l1`. -/
def loss (x0 : (⟨3, ![3, 1000000, 16]⟩ : Shape).Idx → EReal) (x1 : (⟨2, ![1000000, 3]⟩ : Shape).Idx → BitVec 32) :
    (⟨2, ![3, 16]⟩ : Shape).Idx → EReal := fun i => (sums x0 x1 0 i + sums x0 x1 1 i) + sums x0 x1 1 i

end Cert.OrdinalSums

end
-- ==== Proof.Tail.lean ====
import proofs.«148329_j22643067584813_2_alg».proof.Proof.Final
import proofs.«148329_j22643067584813_2_alg».proof.Proof.Results
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

/-!
  The host operations after the region, and the kernel program's run read as values.

  The host sums each `[2,3,16]` output array over its leading axis from `0`: the two runs' partial sums added,
  which is the whole-batch sum. It then forms `(l0 + l1) + l1`.
-/

namespace Cert.KernelIdeal.Tail

open Cert.KernelIdeal Cert.KernelIdeal.Gen Cert.KernelIdeal.Final Cert.OrdinalSums
open Idealize.ShloMosaic.ValueIdx Idealize.ShloMosaic.StableHlo

variable (m : (ℓ : Loc nD τ sig) → Buf (Elt Ideal) ℓ) (ρ : Dev nD → PrngReg)

/-- The first output array as the host operations find it. -/
theorem arr2 (c : Dev nD) :
    Pipeline.withArrays (cfgs 0).spec c (V0 m c) (fun w => (dats m 0 c).arrAt w (cfgs 0).N) (Proc.devRef .tc main_v0_0)
      = partials m 0 c :=
  (Pipeline.withArrays_arr spec0 launch0.win.arr_inj c _ _ 2).trans (final2 m c)

/-- The second output array as the host operations find it. -/
theorem arr3 (c : Dev nD) :
    Pipeline.withArrays (cfgs 0).spec c (V0 m c) (fun w => (dats m 0 c).arrAt w (cfgs 0).N) (Proc.devRef .tc main_v0_1)
      = partials m 1 c :=
  (Pipeline.withArrays_arr spec0 launch0.win.arr_inj c _ _ 3).trans (final3 m c)

/-- The host's sum over the two runs of the partial sums is the whole-batch sum. -/
theorem reduce_partials (k : Fin 3) (c : Dev nD) :
    Host.reduceAdd (F := Ideal) (partials m k c) (constant (F := Ideal) S_ .f32 0x00000000#32) reducesTo_S2x3x16_S3x16_d0 h_S_
      = sums (m ((c : Thread nD τ).loc main_arg0)) (m ((c : Thread nD τ).loc main_arg1)) k := by
  funext i
  obtain ⟨t, j, rfl⟩ : ∃ (t : Fin 3) (j : Fin 16), i = ix2 t j := ⟨i 0, i 1, eq_ix2 i⟩
  simp only [Host.reduceAdd, Ideal.hostReduceAdd_def]
  rw [Ideal.hostReduceAdd_single reducesTo_S2x3x16_S3x16_d0 (by decide)]
  refine (congrArg₂ (· + ·) Ideal.ofBits_zero_f32 (Fin.sum_univ_two _)).trans ?_
  rw [zero_add]
  exact partial_add (m ((c : Thread nD τ).loc main_arg0)) (m ((c : Thread nD τ).loc main_arg1)) k t j

theorem tail_l0 (c : Dev nD) :
    Pipeline.afterTail₀ cfgs (dats m) 0 (V0 m) [hostOps1] c main_v1 = sums (m ((c : Thread nD τ).loc main_arg0)) (m ((c : Thread nD τ).loc main_arg1)) 0 := by
  unfold Pipeline.afterTail₀
  show StableHlo.after hostOps1 _ (Proc.devRef .tc main_v1) = _
  after_results
  rw [arr2 m c]
  exact reduce_partials m 0 c

theorem tail_l1 (c : Dev nD) :
    Pipeline.afterTail₀ cfgs (dats m) 0 (V0 m) [hostOps1] c main_v2 = sums (m ((c : Thread nD τ).loc main_arg0)) (m ((c : Thread nD τ).loc main_arg1)) 1 := by
  unfold Pipeline.afterTail₀
  show StableHlo.after hostOps1 _ (Proc.devRef .tc main_v2) = _
  after_results
  rw [arr3 m c]
  exact reduce_partials m 1 c

theorem tail_loss (c : Dev nD) :
    Pipeline.afterTail₀ cfgs (dats m) 0 (V0 m) [hostOps1] c main_v4 = loss (m ((c : Thread nD τ).loc main_arg0)) (m ((c : Thread nD τ).loc main_arg1)) := by
  unfold Pipeline.afterTail₀
  show StableHlo.after hostOps1 _ (Proc.devRef .tc main_v4) = _
  after_results
  rw [arr2 m c, arr3 m c, reduce_partials m 0 c, reduce_partials m 1 c]
  funext i
  rw [addf_apply, addf_apply]
  unfold loss
  exact Eq.refl _

/-- The run of the kernel program: its four results at the shared functions of the arguments, the arguments unchanged. -/
theorem run : θ_run defs (onTc (τ := τ) (main (F := Ideal))) ⟨m, fun _ => 0, ρ⟩ (fun r => ∀ c : Dev nD,
      r.2.mem ((c.tc : Thread nD τ).loc main_v4) = loss (m ((c : Thread nD τ).loc main_arg0)) (m ((c : Thread nD τ).loc main_arg1))
      ∧ r.2.mem ((c.tc : Thread nD τ).loc main_v1) = sums (m ((c : Thread nD τ).loc main_arg0)) (m ((c : Thread nD τ).loc main_arg1)) 0
      ∧ r.2.mem ((c.tc : Thread nD τ).loc main_v2) = sums (m ((c : Thread nD τ).loc main_arg0)) (m ((c : Thread nD τ).loc main_arg1)) 1
      ∧ r.2.mem ((c.tc : Thread nD τ).loc main_v2) = sums (m ((c : Thread nD τ).loc main_arg0)) (m ((c : Thread nD τ).loc main_arg1)) 1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v4 (Pipeline.mem_restRefs_of main_v4 rfl (by decide))).trans (tail_loss m c),
      ((h c).2 main_v1 (Pipeline.mem_restRefs_of main_v1 rfl (by decide))).trans (tail_l0 m c),
      ((h c).2 main_v2 (Pipeline.mem_restRefs_of main_v2 rfl (by decide))).trans (tail_l1 m c),
      ((h c).2 main_v2 (Pipeline.mem_restRefs_of main_v2 rfl (by decide))).trans (tail_l1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.RefValue.lean ====
import proofs.«148329_j22643067584813_2_alg».proof.Proof.Gen.ReferenceIdeal.Read
import proofs.«148329_j22643067584813_2_alg».proof.Proof.Results
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

/-!
  The reference, read entry by entry.

  It builds the two masks for the whole batch (target columns 0 and 1 of the transposed target array against
  the levels `0 … 15`), subtracts each from the scores, squares, and sums over the batch axis from `0`: the
  whole-batch sums of the per-row terms. The first result is `(l0 + l1) + l1`.
-/

namespace Cert.ReferenceIdeal.RefValue

open Cert.ReferenceIdeal Cert.ReferenceIdeal.Read Cert.OrdinalSums Idealize.ShloMosaic.ValueIdx

/-- The reference's mask for target column 0 at batch row `b`, level `j`. -/
theorem mask0_apply (x1 : (⟨S1000000x3, .i32⟩ : BufTy).Contents (Elt Ideal)) (b : Fin 1000000) (j : Fin 16) :
    val_main_v9 (F := Ideal) x1 (ix2 b j) = msk (x1 (ix2 b (0 : Fin 3))) j := by
  rw [val_main_v9_apply, val_main_v8_apply, val_main_v6_apply, val_main_v2_apply, val_main_v1_apply, val_main_v7_apply, val_main_v5_apply, val_main_v4_apply, val_main_v3_apply, val_main_v0_apply]
  have e : idx_main_v0 (idx_main_v3 (idx_main_v4 (idx_main_v5 (idx_main_v7 (ix2 b j))))) = ix2 b (0 : Fin 3) :=
    funext fun a => Fin.ext (by
      match a with
      | ⟨0, _⟩ => show b.val % 1000000 = b.val; have := b.isLt; omega
      | ⟨1, _⟩ => rfl)
  rw [e]
  rfl

/-- The reference's mask for target column 1 at batch row `b`, level `j`. -/
theorem mask1_apply (x1 : (⟨S1000000x3, .i32⟩ : BufTy).Contents (Elt Ideal)) (b : Fin 1000000) (j : Fin 16) :
    val_main_v17 (F := Ideal) x1 (ix2 b j) = msk (x1 (ix2 b (1 : Fin 3))) j := by
  rw [val_main_v17_apply, val_main_v16_apply, val_main_v14_apply, val_main_v10_apply, val_main_v1_apply, val_main_v15_apply, val_main_v13_apply, val_main_v12_apply, val_main_v11_apply, val_main_v0_apply]
  have e : idx_main_v0 (idx_main_v11 (idx_main_v12 (idx_main_v13 (idx_main_v15 (ix2 b j))))) = ix2 b (1 : Fin 3) :=
    funext fun a => Fin.ext (by
      match a with
      | ⟨0, _⟩ => show b.val % 1000000 = b.val; have := b.isLt; omega
      | ⟨1, _⟩ => rfl)
  rw [e]
  rfl

/-- The reference's sum over the batch for target column 0. -/
theorem sum0_apply (x0 : (⟨S3x1000000x16, .f32⟩ : BufTy).Contents (Elt Ideal)) (x1 : (⟨S1000000x3, .i32⟩ : BufTy).Contents (Elt Ideal))
    (t : Fin 3) (j : Fin 16) :
    val_main_v22 (F := Ideal) x0 x1 (ix2 t j) = total x0 x1 (0 : Fin 3) t j := by
  rw [val_main_v22_apply, val_main_cst_apply]
  show Ideal.ofBits .f32 0x00000000#32 + _ = _
  rw [Ideal.ofBits_zero_f32, zero_add]
  unfold total
  refine Finset.sum_congr rfl fun b _ => ?_
  rw [val_main_v21_apply, val_main_v20_apply, val_main_v19_apply, val_main_v18_apply]
  have e : idx_main_v18 (idx_main_v19 (idx_main_v22 (ix2 t j) b)) = ix2 b j :=
    funext fun a => Fin.ext (by
      match a with
      | ⟨0, _⟩ => rfl
      | ⟨1, _⟩ => rfl)
  have e' : idx_main_v22 (ix2 t j) b = ix3 t b j :=
    funext fun a => Fin.ext (by
      match a with
      | ⟨0, _⟩ => rfl
      | ⟨1, _⟩ => rfl
      | ⟨2, _⟩ => rfl)
  rw [e, e', mask0_apply]
  unfold rowTerm
  rw [dif_pos b.isLt]
  rfl

/-- The reference's sum over the batch for target column 1. -/
theorem sum1_apply (x0 : (⟨S3x1000000x16, .f32⟩ : BufTy).Contents (Elt Ideal)) (x1 : (⟨S1000000x3, .i32⟩ : BufTy).Contents (Elt Ideal))
    (t : Fin 3) (j : Fin 16) :
    val_main_v27 (F := Ideal) x0 x1 (ix2 t j) = total x0 x1 (1 : Fin 3) t j := by
  rw [val_main_v27_apply, val_main_cst_0_apply]
  show Ideal.ofBits .f32 0x00000000#32 + _ = _
  rw [Ideal.ofBits_zero_f32, zero_add]
  unfold total
  refine Finset.sum_congr rfl fun b _ => ?_
  rw [val_main_v26_apply, val_main_v25_apply, val_main_v24_apply, val_main_v23_apply]
  have e : idx_main_v23 (idx_main_v24 (idx_main_v27 (ix2 t j) b)) = ix2 b j :=
    funext fun a => Fin.ext (by
      match a with
      | ⟨0, _⟩ => rfl
      | ⟨1, _⟩ => rfl)
  have e' : idx_main_v27 (ix2 t j) b = ix3 t b j :=
    funext fun a => Fin.ext (by
      match a with
      | ⟨0, _⟩ => rfl
      | ⟨1, _⟩ => rfl
      | ⟨2, _⟩ => rfl)
  rw [e, e', mask1_apply]
  unfold rowTerm
  rw [dif_pos b.isLt]
  rfl

theorem l0_eq (x0 : (⟨S3x1000000x16, .f32⟩ : BufTy).Contents (Elt Ideal)) (x1 : (⟨S1000000x3, .i32⟩ : BufTy).Contents (Elt Ideal)) :
    val_main_v22 (F := Ideal) x0 x1 = sums x0 x1 0 := by
  funext i
  obtain ⟨t, j, rfl⟩ : ∃ (t : Fin 3) (j : Fin 16), i = ix2 t j := ⟨i 0, i 1, eq_ix2 i⟩
  exact sum0_apply x0 x1 t j

theorem l1_eq (x0 : (⟨S3x1000000x16, .f32⟩ : BufTy).Contents (Elt Ideal)) (x1 : (⟨S1000000x3, .i32⟩ : BufTy).Contents (Elt Ideal)) :
    val_main_v27 (F := Ideal) x0 x1 = sums x0 x1 1 := by
  funext i
  obtain ⟨t, j, rfl⟩ : ∃ (t : Fin 3) (j : Fin 16), i = ix2 t j := ⟨i 0, i 1, eq_ix2 i⟩
  exact sum1_apply x0 x1 t j

theorem loss_eq (x0 : (⟨S3x1000000x16, .f32⟩ : BufTy).Contents (Elt Ideal)) (x1 : (⟨S1000000x3, .i32⟩ : BufTy).Contents (Elt Ideal)) :
    val_main_v29 (F := Ideal) x0 x1 = loss x0 x1 := by
  funext i
  rw [val_main_v29_apply, val_main_v28_apply, l0_eq, l1_eq]
  rfl

end Cert.ReferenceIdeal.RefValue

end
-- ==== Proof.lean ====
/-
  The certificate of the ordinal-regression squared-error kernel against its jnp reference, over the extended reals.

  Both programs return, for a score array `x[3, 1000000, 16]` and integer targets `tg[1000000, 3]`, the sums over
  the batch of `(x[t,b,j] - [j ≤ tg[b,k]])²` for target columns `k = 0` and `k = 1` (as `l0`, and as `l1` twice),
  and `(l0 + l1) + l1`. The reference sums over the whole batch at once. The kernel walks a `2 × 50` grid of blocks
  of 10000 batch rows, keeps per value of the outer coordinate a running sum in the output block (zeroed at the
  first of the 50 steps), and the host adds the two partial results. The two agree because a finite sum over the
  extended reals may be regrouped: 2 runs of 50 blocks of 10000 rows are the 1000000 rows. No property of the
  inputs is used, so the finiteness precondition is never opened.

  The modules: `Spec`, `Results` (the shared functions), `Regroup` with `LibTileSum` (the regrouping),
  `Rows`, `Pieces`, `PiecesFirst`, `PiecesLater` (one run of the body), `Blocks` (the input blocks at a grid
  point), `Accum` (induction over the grid points), `Final` (the output arrays after the region), `Tail` (the
  host operations after it and the kernel program's run), `RefValue` (the reference entry by entry).
-/
import proofs.«148329_j22643067584813_2_alg».proof.Defs
import proofs.«148329_j22643067584813_2_alg».proof.Proof.Gen.Kernel
import proofs.«148329_j22643067584813_2_alg».proof.Proof.Gen.Kernel.Skeleton
import proofs.«148329_j22643067584813_2_alg».proof.Proof.Gen.Kernel.Launch
import proofs.«148329_j22643067584813_2_alg».proof.Proof.Gen.Kernel.Points
import proofs.«148329_j22643067584813_2_alg».proof.Proof.Gen.Kernel.Frame
import proofs.«148329_j22643067584813_2_alg».proof.Proof.Gen.KernelIdeal
import proofs.«148329_j22643067584813_2_alg».proof.Proof.Gen.KernelIdeal.Skeleton
import proofs.«148329_j22643067584813_2_alg».proof.Proof.Gen.KernelIdeal.Launch
import proofs.«148329_j22643067584813_2_alg».proof.Proof.Gen.KernelIdeal.Points
import proofs.«148329_j22643067584813_2_alg».proof.Proof.Gen.KernelIdeal.Frame
import proofs.«148329_j22643067584813_2_alg».proof.Proof.Gen.ReferenceIdeal
import proofs.«148329_j22643067584813_2_alg».proof.Proof.Gen.ReferenceIdeal.Run
import proofs.«148329_j22643067584813_2_alg».proof.Proof.Gen.ReferenceIdeal.Read
import proofs.«148329_j22643067584813_2_alg».proof.Proof.Gen.Pre_finite_inputs
import proofs.«148329_j22643067584813_2_alg».proof.Proof.Tail
import proofs.«148329_j22643067584813_2_alg».proof.Proof.RefValue
import Idealize.ShloMosaic.Adequacy
import Idealize.ShloMosaic.Init

noncomputable section

namespace Cert.Proof

open Idealize.ShloMosaic Idealize.ShloMosaic.TcCoe Idealize.SL.Sem Cert.OrdinalSums

/-- The word-level kernel program runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

/-- The ideal pass rewrote nothing. -/
theorem preserves : Cert.preserves_Kernel_KernelIdeal := trivial

/-- Both idealized programs end with `(l0 + l1) + l1`, `l0`, `l1`, `l1` of arguments that agree. -/
theorem algebraic : Cert.algebraic_KernelIdeal_ReferenceIdeal := by
  intro m ρ m' ρ' _ hagree
  refine ⟨fun c => loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)), fun c => sums (m ((c.tc : Thread Cert.KernelIdeal.nD Cert.KernelIdeal.τ).loc Cert.KernelIdeal.main_arg0)) (m ((c.tc : Thread Cert.KernelIdeal.nD Cert.KernelIdeal.τ).loc Cert.KernelIdeal.main_arg1)) 0, fun c => sums (m ((c.tc : Thread Cert.KernelIdeal.nD Cert.KernelIdeal.τ).loc Cert.KernelIdeal.main_arg0)) (m ((c.tc : Thread Cert.KernelIdeal.nD Cert.KernelIdeal.τ).loc Cert.KernelIdeal.main_arg1)) 1, fun c => sums (m ((c.tc : Thread Cert.KernelIdeal.nD Cert.KernelIdeal.τ).loc Cert.KernelIdeal.main_arg0)) (m ((c.tc : Thread Cert.KernelIdeal.nD Cert.KernelIdeal.τ).loc Cert.KernelIdeal.main_arg1)) 1,
    Cert.KernelIdeal.Tail.run m ρ, ?_⟩
  refine (θ_run Cert.ReferenceIdeal.defs _ _).mono (fun _ h c => ?_) (Cert.ReferenceIdeal.Value.run (F := Ideal) m' ρ')
  obtain ⟨h29, h22, h27, h27', ha0, ha1⟩ := h c
  refine ⟨h29.trans ?_, h22.trans ?_, h27.trans ?_, h27'.trans ?_, ha0, ha1⟩
  · rw [Cert.ReferenceIdeal.Read.val_main_v29_eq, Cert.ReferenceIdeal.RefValue.loss_eq, (hagree c).1, (hagree c).2]
  · rw [Cert.ReferenceIdeal.Read.val_main_v22_eq, Cert.ReferenceIdeal.RefValue.l0_eq, (hagree c).1, (hagree c).2]
  · rw [Cert.ReferenceIdeal.Read.val_main_v27_eq, Cert.ReferenceIdeal.RefValue.l1_eq, (hagree c).1, (hagree c).2]
  · rw [Cert.ReferenceIdeal.Read.val_main_v27_eq, Cert.ReferenceIdeal.RefValue.l1_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
